-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x2x128 : Shape := ⟨3, ![128, 2, 128]⟩
abbrev S128x2 : Shape := ⟨2, ![128, 2]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x2x128 : S_.BroadcastsInDim S128x2x128 (![] : Fin 0 → Fin S128x2x128.rank)
  reducesTo_S128x2x128_S_d0_1_2 : S128x2x128.ReducesTo [0, 1, 2] S_
  bcast_S_S128x2 : S_.BroadcastsInDim S128x2 (![] : Fin 0 → Fin S128x2.rank)
  reducesTo_S128x2_S_d0_1 : S128x2.ReducesTo [0, 1] S_

variable [Facts]

def fn {F : FTy → Type} [FloatOps F] (main_arg0 : FVec F S131072x128 .f32) (main_arg1 : FVec F S128x2x128 .f32) (main_arg2 : FVec F S128x2 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x2x128 .f32 := Host.absf main_arg1
  let main_cst_0 : FVec F S_ .f32 := constant S_ .f32 0x7F800000#32
  let main_v5 : FVec F S128x2x128 .f32 := broadcastInDim S128x2x128 ![] bcast_S_S128x2x128 main_cst_0
  let main_v6 : IVec S128x2x128 1 := cmpf .olt main_v4 main_v5
  let main_c_1 : IVec S_ 1 := constantI S_ 1 1#1
  let main_v7 : IVec S_ 1 := (fun x v => Host.reduce IntOp.andi x v reducesTo_S128x2x128_S_d0_1_2 h_S_) main_v6 main_c_1
  let main_v8 : IVec S_ 1 := andi main_v3 main_v7
  let main_v9 : FVec F S128x2 .f32 := Host.absf main_arg2
  let main_cst_2 : FVec F S_ .f32 := constant S_ .f32 0x7F800000#32
  let main_v10 : FVec F S128x2 .f32 := broadcastInDim S128x2 ![] bcast_S_S128x2 main_cst_2
  let main_v11 : IVec S128x2 1 := cmpf .olt main_v9 main_v10
  let main_c_3 : IVec S_ 1 := constantI S_ 1 1#1
  let main_v12 : IVec S_ 1 := (fun x v => Host.reduce IntOp.andi x v reducesTo_S128x2_S_d0_1 h_S_) main_v11 main_c_3
  let main_v13 : IVec S_ 1 := andi main_v8 main_v12
  main_v13
-- ==== Kernel.lean ====
abbrev S131072x128 : Shape := ⟨2, ![131072, 128]⟩
abbrev S128x2x128 : Shape := ⟨3, ![128, 2, 128]⟩
abbrev S128x2 : Shape := ⟨2, ![128, 2]⟩
abbrev S128x256 : Shape := ⟨2, ![128, 256]⟩
abbrev S2x128 : Shape := ⟨2, ![2, 128]⟩
abbrev S1x256 : Shape := ⟨2, ![1, 256]⟩
abbrev S8192x128 : Shape := ⟨2, ![8192, 128]⟩
abbrev S8192x256 : Shape := ⟨2, ![8192, 256]⟩

abbrev nBuf : Space → Nat
  | .hbm => 10
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S128x2x128, .f32⟩
  | .hbm, ⟨2, _⟩ => ⟨S128x2, .f32⟩
  | .hbm, ⟨3, _⟩ => ⟨S128x2x128, .f32⟩
  | .hbm, ⟨4, _⟩ => ⟨S128x256, .f32⟩
  | .hbm, ⟨5, _⟩ => ⟨S128x256, .bf16⟩
  | .hbm, ⟨6, _⟩ => ⟨S2x128, .f32⟩
  | .hbm, ⟨7, _⟩ => ⟨S1x256, .f32⟩
  | .hbm, ⟨8, _⟩ => ⟨S131072x128, .f32⟩
  | .hbm, ⟨9, _⟩ => ⟨S131072x128, .f32⟩
  | .local _ .vmem, ⟨0, _⟩ => ⟨S8192x128, .f32⟩
  | .local _ .vmem, ⟨1, _⟩ => ⟨S8192x128, .f32⟩
  | .local _ .vmem, ⟨2, _⟩ => ⟨S128x256, .bf16⟩
  | .local _ .vmem, ⟨3, _⟩ => ⟨S1x256, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x2x128_S128x2x128_2_1_0 : S128x2x128.Transposes [2, 1, 0] S128x2x128
  shapeCasts_S128x2x128_S128x256 : S128x2x128.ShapeCasts S128x256
  bitsLt_bf16_f32 : FTy.bits .bf16 < FTy.bits .f32
  transposes_S128x2_S2x128_1_0 : S128x2.Transposes [1, 0] S2x128
  shapeCasts_S2x128_S1x256 : S2x128.ShapeCasts S1x256
  inb_S8192x128_S8192x128_0_0 : ∀ a, (![0, 0] : Fin 2 → Nat) a + S8192x128.size a ≤ S8192x128.size a
  h_S8192x128 : 0 < S8192x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  slices_S8192x256_o0_0_S8192x128 : S8192x256.Slices ![0, 0] S8192x128
  slices_S8192x256_o0_128_S8192x128 : S8192x256.Slices ![0, 128] S8192x128
  dot_S8192x128_S128x256_S8192x256_1_0_0_1_n_n_wf : DotDims.WF S8192x128 S128x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S131072x128.size a
  hwx0_3 : ∀ i : grid0.Coords, EltTy.bits .f32 = 32 ∨ (Rect.block (s := S131072x128) S8192x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S131072x128.size a
  hwx0_4 : ∀ i : grid0.Coords, EltTy.bits .f32 = 32 ∨ (Rect.block (s := S131072x128) S8192x128.size (cc0_transform_4 i) (hinb0_4 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S8192x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x2x128 : Shape := ⟨3, ![128, 2, 128]⟩
abbrev S128x2 : Shape := ⟨2, ![128, 2]⟩
abbrev S131072x128x2 : Shape := ⟨3, ![131072, 128, 2]⟩
abbrev S1x128x2 : Shape := ⟨3, ![1, 128, 2]⟩
abbrev S131072x128x1 : Shape := ⟨3, ![131072, 128, 1]⟩

abbrev nBuf : Space → Nat
  | .hbm => 11
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S128x2x128, .f32⟩
  | .hbm, ⟨2, _⟩ => ⟨S128x2, .f32⟩
  | .hbm, ⟨3, _⟩ => ⟨S131072x128x2, .f32⟩
  | .hbm, ⟨4, _⟩ => ⟨S1x128x2, .f32⟩
  | .hbm, ⟨5, _⟩ => ⟨S131072x128x2, .f32⟩
  | .hbm, ⟨6, _⟩ => ⟨S131072x128x2, .f32⟩
  | .hbm, ⟨7, _⟩ => ⟨S131072x128x1, .f32⟩
  | .hbm, ⟨8, _⟩ => ⟨S131072x128, .f32⟩
  | .hbm, ⟨9, _⟩ => ⟨S131072x128x1, .f32⟩
  | .hbm, ⟨10, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S128x2_S1x128x2_1_2 : S128x2.BroadcastsInDim S1x128x2 (![1, 2] : Fin 2 → Fin S1x128x2.rank)
  bcast_S1x128x2_S131072x128x2_0_1_2 : S1x128x2.BroadcastsInDim S131072x128x2 (![0, 1, 2] : Fin 3 → Fin S131072x128x2.rank)
  slices_S131072x128x2_S131072x128x1_0_0_0 : S131072x128x2.Slices ![0, 0, 0] S131072x128x1
  shapeCasts_S131072x128x1_S131072x128 : S131072x128x1.ShapeCasts S131072x128
  slices_S131072x128x2_S131072x128x1_0_0_1 : S131072x128x2.Slices ![0, 0, 1] S131072x128x1
  dot_S131072x128_S128x2x128_S131072x128x2_1_2_0_01_n_n_wf : DotDims.WF S131072x128 S128x2x128 S131072x128x2 [1] [2] [0] [0, 1] [] []

variable [Facts₀]

def dot_S131072x128_S128x2x128_S131072x128x2_1_2_0_01_n_n : DotDims S131072x128 S128x2x128 S131072x128x2 where
  lhsContracting := [1]
  rhsContracting := [2]
  lhsNonContracting := [0]
  rhsNonContracting := [0, 1]
  lhsBatch := []
  rhsBatch := []
  wf := dot_S131072x128_S128x2x128_S131072x128x2_1_2_0_01_n_n_wf

class Facts : Prop extends Facts₀ where

variable [Facts]
-- ==== Proof.Affine.lean ====
/-
  The specification both programs are compared with: a bank of 128 affine maps from ℝ¹²⁸ to ℝ², one per node,
  applied to each of 131072 state rows.  For a state array `x` of shape [131072, 128], weights `w` of shape
  [128, 2, 128] and biases `b` of shape [128, 2], HEAD `o` (`o = 0` the mean head, `o = 1` the variance head) is
  the array of shape [131072, 128] whose entry at row `r` and node `n` is

      Σ_d x[r, d] · w[n, o, d]  +  b[n, o]

  over the extended reals.  Nothing here mentions a program: the two sides are proved equal to `head` separately.
-/
import Idealize.ShloMosaic.PureOps.Ideal
import Idealize.ShloMosaic.Lib.ValueIdx

noncomputable section

open scoped BigOperators

namespace Cert.Affine

open Idealize.ShloMosaic Idealize.ShloMosaic.ValueIdx

/-- The state rows, [131072, 128]. -/
abbrev States : Shape := ⟨2, ![131072, 128]⟩
/-- The per-node weights, [node, head, feature] = [128, 2, 128]. -/
abbrev Weights : Shape := ⟨3, ![128, 2, 128]⟩
/-- The per-node biases, [node, head] = [128, 2]. -/
abbrev Biases : Shape := ⟨2, ![128, 2]⟩

/-- Head `o` at row `r` and node `n`: the inner product of the row with node `n`'s weight vector for that head,
    plus the node's bias for that head. -/
def entry (o : Fin 2) (x : States.Idx → EReal) (w : Weights.Idx → EReal) (b : Biases.Idx → EReal)
    (r : Fin 131072) (n : Fin 128) : EReal :=
  (∑ d : Fin 128, x (ix2 r d) * w (ix3 n o d)) + b (ix2 n o)

/-- Head `o` as an array over [131072, 128]. -/
def head (o : Fin 2) (x : States.Idx → EReal) (w : Weights.Idx → EReal) (b : Biases.Idx → EReal) :
    States.Idx → EReal :=
  fun i => entry o x w b (i 0) (i 1)

/-- `head` at an index whose two coordinates are known by value. -/
theorem head_apply (o : Fin 2) (x : States.Idx → EReal) (w : Weights.Idx → EReal) (b : Biases.Idx → EReal)
    (i : States.Idx) (r : Fin 131072) (n : Fin 128) (h0 : (i 0).val = r.val) (h1 : (i 1).val = n.val) :
    head o x w b i = (∑ d : Fin 128, x (ix2 r d) * w (ix3 n o d)) + b (ix2 n o) := by
  have e0 : (i 0 : Fin 131072) = r := Fin.ext h0
  have e1 : (i 1 : Fin 128) = n := Fin.ext h1
  show entry o x w b (i 0) (i 1) = _
  rw [e0, e1]
  rfl

end Cert.Affine

end
-- ==== Proof.RefHeads.lean ====
/-
  The reference computes the two heads of the affine bank.  Its program contracts the state rows with the weights
  over the feature axis into an array [131072, 128, 2] (row, node, head), adds the biases broadcast along the rows,
  and returns the two slices along the last axis, each reshaped to [131072, 128].  Read at an index (r, n), result
  `o` is therefore  Σ_d x[r, d] · w[n, o, d] + b[n, o]  — `Affine.head o`.  The reshape [131072, 128, 1] → [131072, 128]
  keeps the row-major position, so the flat position r · 128 + n splits back into (r, n, 0).
-/
import proofs.«159036_j25786983646071_2_alg».proof.Proof.Gen.ReferenceIdeal.Read
import proofs.«159036_j25786983646071_2_alg».proof.Proof.Affine

noncomputable section

open scoped BigOperators

namespace Cert.ReferenceIdeal.Heads

open Cert.ReferenceIdeal Cert.ReferenceIdeal.Read Idealize.ShloMosaic Idealize.ShloMosaic.ValueIdx

variable (x0 : (⟨S131072x128, .f32⟩ : BufTy).Contents (Elt Ideal)) (x1 : (⟨S128x2x128, .f32⟩ : BufTy).Contents (Elt Ideal))
  (x2 : (⟨S128x2, .f32⟩ : BufTy).Contents (Elt Ideal))

/-- The first result is the mean head: the slice at head 0 of the contraction plus biases. -/
theorem result0_eq_head : val_main_v5 (F := Ideal) x0 x1 x2 = Affine.head 0 x0 x1 x2 := by
  funext i
  obtain ⟨r, n, rfl⟩ : ∃ (r : Fin 131072) (n : Fin 128), i = ix2 r n := ⟨i 0, i 1, eq_ix2 i⟩
  have hr := r.isLt
  have hn := n.isLt
  rw [val_main_v5_apply, val_main_v4_apply, val_main_v3_apply, val_main_v0_apply, val_main_v2_apply, val_main_v1_apply,
    Affine.head_apply 0 x0 x1 x2 (ix2 r n) r n rfl rfl]
  -- the state row read by the contraction is row r
  have hl : ∀ k : Fin 128, lidx_main_v0 (idx_main_v4 (idx_main_v5 (ix2 r n))) k = ix2 r k := fun k => funext fun a => Fin.ext (by
    match a with
    | ⟨0, _⟩ => show (r.val * 128 + n.val) / 128 = r.val; omega
    | ⟨1, _⟩ => rfl)
  -- the weight vector read by the contraction is node n's, head 0
  have hw : ∀ k : Fin 128, ridx_main_v0 (idx_main_v4 (idx_main_v5 (ix2 r n))) k = ix3 n (0 : Fin 2) k := fun k => funext fun a => Fin.ext (by
    match a with
    | ⟨0, _⟩ => show (r.val * 128 + n.val) / 1 % 128 = n.val; omega
    | ⟨1, _⟩ => rfl
    | ⟨2, _⟩ => rfl)
  -- the bias read is node n's, head 0
  have hb : idx_main_v1 (idx_main_v2 (idx_main_v4 (idx_main_v5 (ix2 r n)))) = ix2 n (0 : Fin 2) := funext fun a => Fin.ext (by
    match a with
    | ⟨0, _⟩ => show (r.val * 128 + n.val) / 1 % 128 = n.val; omega
    | ⟨1, _⟩ => rfl)
  simp only [hl, hw, hb]
  rfl

/-- The second result is the variance head: the slice at head 1. -/
theorem result1_eq_head : val_main_v7 (F := Ideal) x0 x1 x2 = Affine.head 1 x0 x1 x2 := by
  funext i
  obtain ⟨r, n, rfl⟩ : ∃ (r : Fin 131072) (n : Fin 128), i = ix2 r n := ⟨i 0, i 1, eq_ix2 i⟩
  have hr := r.isLt
  have hn := n.isLt
  rw [val_main_v7_apply, val_main_v6_apply, val_main_v3_apply, val_main_v0_apply, val_main_v2_apply, val_main_v1_apply,
    Affine.head_apply 1 x0 x1 x2 (ix2 r n) r n rfl rfl]
  have hl : ∀ k : Fin 128, lidx_main_v0 (idx_main_v6 (idx_main_v7 (ix2 r n))) k = ix2 r k := fun k => funext fun a => Fin.ext (by
    match a with
    | ⟨0, _⟩ => show (r.val * 128 + n.val) / 128 = r.val; omega
    | ⟨1, _⟩ => rfl)
  have hw : ∀ k : Fin 128, ridx_main_v0 (idx_main_v6 (idx_main_v7 (ix2 r n))) k = ix3 n (1 : Fin 2) k := fun k => funext fun a => Fin.ext (by
    match a with
    | ⟨0, _⟩ => show (r.val * 128 + n.val) / 1 % 128 = n.val; omega
    | ⟨1, _⟩ => rfl
    | ⟨2, _⟩ => rfl)
  have hb : idx_main_v1 (idx_main_v2 (idx_main_v6 (idx_main_v7 (ix2 r n)))) = ix2 n (1 : Fin 2) := funext fun a => Fin.ext (by
    match a with
    | ⟨0, _⟩ => show (r.val * 128 + n.val) / 1 % 128 = n.val; omega
    | ⟨1, _⟩ => rfl)
  simp only [hl, hw, hb]
  rfl

end Cert.ReferenceIdeal.Heads

end
-- ==== Proof.Payload.lean ====
/-
  What the kernel body leaves in its two output blocks, entry by entry, at the ideal values.

  At one grid point the body holds a block `x` of 8192 state rows ([8192, 128]), the whole combined weight matrix
  `w` ([128, 256]: feature × (head, node), head-major) and the combined bias row `b` ([1, 256]).  It forms the
  product x · w into a zero accumulator — at the ideal values the plain sum Σ_k x[r, k] · w[k, q], the rounding of
  `x` to a narrower format being the identity there — adds the bias row to every row, and stores columns 0 … 127 in
  the first output block and columns 128 … 255 in the second.  So at (r, n) the first block holds

      Σ_k x[r, k] · w[k, n] + b[0, n]

  and the second the same at column n + 128.
-/
import proofs.«159036_j25786983646071_2_alg».proof.Proof.Gen.KernelIdeal.Value
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The product's operand indices -/

theorem lhs_row (i : S8192x256.Idx) (q : dot_S8192x128_S128x256_S8192x256_1_0_0_1_n_n.contr.Idx) :
    (dot_S8192x128_S128x256_S8192x256_1_0_0_1_n_n.lhsIdx i q 0).val = (i 0).val := by
  unfold DotDims.lhsIdx
  rw [dif_neg (show ¬(0 : Fin S8192x128.rank) ∈ dot_S8192x128_S128x256_S8192x256_1_0_0_1_n_n.lhsBatch by decide), dif_pos (show (0 : Fin S8192x128.rank) ∈ dot_S8192x128_S128x256_S8192x256_1_0_0_1_n_n.lhsNonContracting by decide)]
  rfl

theorem lhs_contr (i : S8192x256.Idx) (q : dot_S8192x128_S128x256_S8192x256_1_0_0_1_n_n.contr.Idx) :
    (dot_S8192x128_S128x256_S8192x256_1_0_0_1_n_n.lhsIdx i q 1).val = (q ⟨0, by decide⟩).val :=
  dot_S8192x128_S128x256_S8192x256_1_0_0_1_n_n.lhsIdx_val_of_single rfl i q

theorem rhs_contr (i : S8192x256.Idx) (q : dot_S8192x128_S128x256_S8192x256_1_0_0_1_n_n.contr.Idx) :
    (dot_S8192x128_S128x256_S8192x256_1_0_0_1_n_n.rhsIdx i q 0).val = (q ⟨0, by decide⟩).val :=
  dot_S8192x128_S128x256_S8192x256_1_0_0_1_n_n.rhsIdx_val_of_single rfl i q

theorem rhs_col (i : S8192x256.Idx) (q : dot_S8192x128_S128x256_S8192x256_1_0_0_1_n_n.contr.Idx) :
    (dot_S8192x128_S128x256_S8192x256_1_0_0_1_n_n.rhsIdx i q 1).val = (i 1).val := by
  unfold DotDims.rhsIdx
  rw [dif_neg (show ¬(1 : Fin S128x256.rank) ∈ dot_S8192x128_S128x256_S8192x256_1_0_0_1_n_n.rhsBatch by decide), dif_pos (show (1 : Fin S128x256.rank) ∈ dot_S8192x128_S128x256_S8192x256_1_0_0_1_n_n.rhsNonContracting by decide)]
  rfl

/-- The product of a [8192, 128] block with a [128, 256] matrix into the zero accumulator, at (r, q): the sum over the
    128 features of row r's entry times column q's. -/
theorem product_apply (L : FVec Ideal S8192x128 .bf16) (R : FVec Ideal S128x256 .bf16) (r : Fin 8192) (q : Fin 256) :
    matmul (F := Ideal) dot_S8192x128_S128x256_S8192x256_1_0_0_1_n_n none L R (constant S8192x256 .f32 0x00000000#32) (ix2 r q)
      = ∑ k : Fin 128, L (ix2 r k) * R (ix2 k q) := by
  show FloatOps.matmul dot_S8192x128_S128x256_S8192x256_1_0_0_1_n_n none L R (constant S8192x256 .f32 0x00000000#32) (ix2 r q) = _
  rw [Ideal.matmul_constant_zero_apply, ← Equiv.sum_comp (contrEquiv1 dot_S8192x128_S128x256_S8192x256_1_0_0_1_n_n 128 rfl rfl).symm]
  refine Finset.sum_congr rfl fun k _ => ?_
  have hk := contrEquiv1_symm_val dot_S8192x128_S128x256_S8192x256_1_0_0_1_n_n 128 rfl rfl k
  have el : dot_S8192x128_S128x256_S8192x256_1_0_0_1_n_n.lhsIdx (ix2 r q) ((contrEquiv1 dot_S8192x128_S128x256_S8192x256_1_0_0_1_n_n 128 rfl rfl).symm k) = ix2 r k := funext fun a => Fin.ext (by
    match a with
    | ⟨0, _⟩ => exact lhs_row _ _
    | ⟨1, _⟩ => exact (lhs_contr _ _).trans hk)
  have er : dot_S8192x128_S128x256_S8192x256_1_0_0_1_n_n.rhsIdx (ix2 r q) ((contrEquiv1 dot_S8192x128_S128x256_S8192x256_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The body's sum before the split -/

/-- The [8192, 256] value the body splits: product plus bias row, at (r, q). -/
theorem affine_apply (P0 : Vec Ideal S8192x128 .f32) (P1 : Vec Ideal S128x256 .bf16) (P2 : Vec Ideal S1x256 .f32)
    (r : Fin 8192) (q : Fin 256) :
    k0_pay1 (F := Ideal) P0 P1 P2 (ix2 r q) = (∑ k : Fin 128, P0 (ix2 r k) * P1 (ix2 k q)) + P2 (ix2 (0 : Fin 1) q) := by
  unfold k0_pay1
  rw [addf_apply, shapeCast_self, shapeCast_self]
  refine congrArg₂ (· + ·) ?_ ?_
  · exact product_apply (truncf .bf16 P0 bitsLt_bf16_f32) P1 r q
  · exact broadcastTo_1b_ab_apply P2 broadcasts_S1x256_S8192x256 r q

/-! ## The two stored blocks -/

/-- The first output block at (r, n): column n of the sum. -/
theorem out_mean_apply (x0 : Vec Ideal S8192x128 .f32) (x1 : Vec Ideal S128x256 .bf16) (x2 : Vec Ideal S1x256 .f32)
    (r : Fin 8192) (n : Fin 128) (q : Fin 256) (hq : q.val = n.val) :
    out0_3 (F := Ideal) x0 x1 x2 (ix2 r n) = (∑ k : Fin 128, x0 (ix2 r k) * x1 (ix2 k q)) + x2 (ix2 (0 : Fin 1) q) := by
  unfold out0_3
  rw [Value.canon3_eq]
  have hz : (![0, 0] : Fin 2 → Nat) = fun _ => 0 := funext fun a => by fin_cases a <;> rfl
  simp only [View.ld_unit_zero (S := S8192x128) hz, View.ld_unit_zero (S := S128x256) hz, View.ld_unit_zero (S := S1x256) hz]
  have e : Value.ix3_0 (ix2 r n) = ix2 r q := funext fun a => Fin.ext (by
    match a with
    | ⟨0, _⟩ => rfl
    | ⟨1, _⟩ => exact hq.symm)
  show k0_pay1 x0 x1 x2 (Value.ix3_0 (ix2 r n)) = _
  rw [e]
  exact affine_apply x0 x1 x2 r q

/-- The second output block at (r, n): column n + 128 of the sum. -/
theorem out_var_apply (x0 : Vec Ideal S8192x128 .f32) (x1 : Vec Ideal S128x256 .bf16) (x2 : Vec Ideal S1x256 .f32)
    (r : Fin 8192) (n : Fin 128) (q : Fin 256) (hq : q.val = n.val + 128) :
    out0_4 (F := Ideal) x0 x1 x2 (ix2 r n) = (∑ k : Fin 128, x0 (ix2 r k) * x1 (ix2 k q)) + x2 (ix2 (0 : Fin 1) q) := by
  unfold out0_4
  rw [Value.canon4_eq]
  have hz : (![0, 0] : Fin 2 → Nat) = fun _ => 0 := funext fun a => by fin_cases a <;> rfl
  simp only [View.ld_unit_zero (S := S8192x128) hz, View.ld_unit_zero (S := S128x256) hz, View.ld_unit_zero (S := S1x256) hz]
  have e : Value.ix4_0 (ix2 r n) = ix2 r q := funext fun a => Fin.ext (by
    match a with
    | ⟨0, _⟩ => rfl
    | ⟨1, _⟩ => exact hq.symm)
  show k0_pay1 x0 x1 x2 (Value.ix4_0 (ix2 r n)) = _
  rw [e]
  exact affine_apply x0 x1 x2 r q

end Cert.KernelIdeal.Body

end
-- ==== Proof.Staged.lean ====
/-
  What the kernel's three input windows hold at a grid point, in terms of the program's arguments.

  Before the kernel is launched the program re-lays the parameters: the weights [node, head, feature] are transposed
  to [feature, head, node] and flattened to the matrix [128, 256] whose column head · 128 + node is that node's
  weight vector for that head (then rounded to a narrower format: the identity at the ideal values); the biases
  [node, head] are transposed to [head, node] and flattened to one row [1, 256] with the same column order.
  The state window moves down the rows, 8192 at a time, with the output windows; the weight and bias windows are the
  whole re-laid arrays at every point.
-/
import proofs.«159036_j25786983646071_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The re-laid parameters -/

/-- Reversing the three axes: the result at (d, o, n) is the operand at (n, o, d). -/
theorem reverse_axes_apply (x : S128x2x128.Idx → EReal) (d : Fin 128) (o : Fin 2) (n : Fin 128) :
    transpose S128x2x128 [2, 1, 0] x transposes_S128x2x128_S128x2x128_2_1_0 (ix3 d o n) = x (ix3 n o d) :=
  transpose_apply _ x _ _ _ fun c => match c with | ⟨0, _⟩ => rfl | ⟨1, _⟩ => rfl | ⟨2, _⟩ => rfl

/-- The weight matrix the region finds is the weights argument with its axes reversed, flattened, format changed. -/
theorem weights_eq (c : Dev nD) :
    (V m c main_v2 : S128x256.Idx → EReal)
      = truncf (F := Ideal) .bf16 (shapeCast S128x256 (transpose S128x2x128 [2, 1, 0] (m ((c : Thread nD τ).loc main_arg1)) transposes_S128x2x128_S128x2x128_2_1_0) shapeCasts_S128x2x128_S128x256) bitsLt_bf16_f32 := by
  dsimp only [Gen.V, Gen.hostOps0]; after_results; rfl

/-- The bias row the region finds is the biases argument transposed and flattened. -/
theorem bias_eq (c : Dev nD) :
    (V m c main_v4 : S1x256.Idx → EReal)
      = shapeCast S1x256 (transpose S2x128 [1, 0] (m ((c : Thread nD τ).loc main_arg2)) transposes_S128x2_S2x128_1_0) shapeCasts_S2x128_S1x256 := by
  dsimp only [Gen.V, Gen.hostOps0]; after_results; rfl

/-- Row k, column o · 128 + n of the weight matrix is feature k of node n's weight vector for head o. -/
theorem weights_apply (c : Dev nD) (j : S128x256.Idx) (k : Fin 128) (o : Fin 2) (n : Fin 128)
    (h0 : (j 0).val = k.val) (h1 : (j 1).val = o.val * 128 + n.val) :
    V m c main_v2 j = m ((c : Thread nD τ).loc main_arg1) (ix3 n o k) := by
  refine (congrFun (weights_eq m c) j).trans ?_
  refine (shapeCast_apply _ shapeCasts_S128x2x128_S128x256 j (ix3 k o n) ?_).trans (reverse_axes_apply _ k o n)
  rewrite [Shape.rowMajor_val_three, Shape.rowMajor_val_two]
  have hn := n.isLt
  have ho := o.isLt
  show (k.val * 2 + o.val) * 128 + n.val = (j 0).val * 256 + (j 1).val
  omega

/-- Column o · 128 + n of the bias row is node n's bias for head o. -/
theorem bias_apply (c : Dev nD) (j : S1x256.Idx) (o : Fin 2) (n : Fin 128)
    (h1 : (j 1).val = o.val * 128 + n.val) :
    V m c main_v4 j = m ((c : Thread nD τ).loc main_arg2) (ix2 n o) := by
  refine (congrFun (bias_eq m c) j).trans ?_
  refine (shapeCast_apply _ shapeCasts_S2x128_S1x256 j (ix2 o n) ?_).trans (transpose_ix2_apply _ transposes_S128x2_S2x128_1_0 o n)
  rewrite [Shape.rowMajor_val_two, Shape.rowMajor_val_two]
  have hj : (j 0).val < 1 := (j 0).isLt
  show o.val * 128 + n.val = (j 0).val * 256 + (j 1).val
  omega

/-! ## The windows' blocks -/

/-- How the five windows' block indices move over the sixteen grid points: the state window and both output windows
    sit at the same block of rows, which is one of the sixteen, in block column 0; the weight and bias windows stay at
    block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = win0_3.index t (0 : Fin 2)
    ∧ win0_3.index t (1 : Fin 2) = 0 ∧ win0_4.index t (1 : Fin 2) = 0
    ∧ win0_3.index t (0 : Fin 2) ≤ 15 :=
  (by decide +kernel : ∀ t : Fin grid0.N, _)

/-- Every one of the sixteen row blocks is some point's. -/
theorem idx_onto : ∀ q : Fin 16, ∃ t : Fin cfg0.N, win0_3.index t (0 : Fin 2) = q.val :=
  (by decide +kernel : ∀ q : Fin 16, ∃ t : Fin grid0.N, win0_3.index t (0 : Fin 2) = q.val)

/-- The state block at a point: its row r is the argument's row (block row) · 8192 + r. -/
theorem states_read (c : Dev nD) (t : Fin cfg0.N) (r : Fin 8192) (k : Fin 128) (R : Fin 131072)
    (hR : R.val = win0_3.index t (0 : Fin 2) * 8192 + r.val) :
    iblk m c 0 t (ix2 r k : S8192x128.Idx) = m ((c : Thread nD τ).loc main_arg0) (ix2 R k) := by
  obtain ⟨e0, e1, -⟩ := idx_facts t
  show V m c main_arg0 (((cfg0.win 0).blk t).view.emb (ix2 r k : S8192x128.Idx)) = _
  rw [V_main_arg0]
  refine congrArg _ (funext fun a => Fin.ext ?_)
  match a with
  | ⟨0, _⟩ => show win0_0.index t (0 : Fin 2) * 8192 + 1 * r.val = R.val; omega
  | ⟨1, _⟩ => show win0_0.index t (1 : Fin 2) * 128 + 1 * k.val = k.val; omega

/-- The weight block at any point is the whole weight matrix. -/
theorem weights_read (c : Dev nD) (t : Fin cfg0.N) (k : Fin 128) (q : Fin 256) (o : Fin 2) (n : Fin 128)
    (hq : q.val = o.val * 128 + n.val) :
    iblk m c 1 t (ix2 k q : S128x256.Idx) = m ((c : Thread nD τ).loc main_arg1) (ix3 n o k) := by
  obtain ⟨-, -, e2, e3, -⟩ := idx_facts t
  show V m c main_v2 (((cfg0.win 1).blk t).view.emb (ix2 k q : S128x256.Idx)) = _
  refine weights_apply m c _ k o n ?_ ?_
  · show win0_1.index t (0 : Fin 2) * 128 + 1 * k.val = k.val; omega
  · show win0_1.index t (1 : Fin 2) * 256 + 1 * q.val = o.val * 128 + n.val; omega

/-- The bias block at any point is the whole bias row. -/
theorem bias_read (c : Dev nD) (t : Fin cfg0.N) (q : Fin 256) (o : Fin 2) (n : Fin 128)
    (hq : q.val = o.val * 128 + n.val) :
    iblk m c 2 t (ix2 (0 : Fin 1) q : S1x256.Idx) = m ((c : Thread nD τ).loc main_arg2) (ix2 n o) := by
  obtain ⟨-, -, -, -, e4, e5, -⟩ := idx_facts t
  show V m c main_v4 (((cfg0.win 2).blk t).view.emb (ix2 (0 : Fin 1) q : S1x256.Idx)) = _
  refine bias_apply m c _ o n ?_
  show win0_2.index t (1 : Fin 2) * 256 + 1 * q.val = o.val * 128 + n.val; omega

end Cert.KernelIdeal.Staged

end
-- ==== Proof.Blocks.lean ====
/-
  From the sixteen grid points' blocks to the two whole output arrays.

  Point t writes back, to rows (block row) · 8192 … of each output array, what the body left in that window's staging
  block.  Entry (r, n) of the first block is Σ_k x[r, k] · w[k, n] + b[0, n] over the point's input blocks; the
  state block's row r is the argument's row R = (block row) · 8192 + r, the weight matrix's column n is node n's
  weight vector for head 0 and the bias row's column n its bias for head 0 — so the entry is the mean head at (R, n).
  The second block reads columns n + 128: head 1.  The sixteen blocks of 8192 rows tile the 131072 rows, so each
  output array ends as the whole head.
-/
import proofs.«159036_j25786983646071_2_alg».proof.Proof.Gen.KernelIdeal.Value
import proofs.«159036_j25786983646071_2_alg».proof.Proof.Affine
import proofs.«159036_j25786983646071_2_alg».proof.Proof.Payload
import proofs.«159036_j25786983646071_2_alg».proof.Proof.Staged

noncomputable section

open scoped BigOperators

namespace Cert.KernelIdeal.Heads

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Head `o` of the program's three arguments as launched, on core `c`. -/
abbrev headOf (c : Dev nD) (o : Fin 2) : S131072x128.Idx → EReal :=
  Affine.head o (m ((c : Thread nD τ).loc main_arg0)) (m ((c : Thread nD τ).loc main_arg1)) (m ((c : Thread nD τ).loc main_arg2))

/-! ## What a point writes back -/

/-- Point `t` writes back, to the first output array, its block of the mean head. -/
theorem flushed_mean (c : Dev nD) (t : Fin cfg0.N) :
    (dats m 0 c).flushed 3 t = ((cfg0.win 3).blk t).view.read (Elt Ideal) (headOf m c 0) := by
  rw [Value.flushed3]
  obtain ⟨-, -, -, -, -, -, -, e7, -, e9⟩ := Staged.idx_facts t
  funext y
  obtain ⟨r, n, rfl⟩ : ∃ (r : Fin 8192) (n : Fin 128), y = ix2 r n := ⟨y 0, y 1, eq_ix2 y⟩
  have hr := r.isLt
  have hn := n.isLt
  show out0_3 (iblk m c 0 t) (iblk m c 1 t) (iblk m c 2 t) (ix2 r n)
    = headOf m c 0 (((cfg0.win 3).blk t).view.emb (ix2 r n : S8192x128.Idx))
  refine (Body.out_mean_apply (iblk m c 0 t) (iblk m c 1 t) (iblk m c 2 t) r n ⟨n.val, by omega⟩ rfl).trans ?_
  refine Eq.trans ?_ (Affine.head_apply 0 _ _ _ _ ⟨win0_3.index t (0 : Fin 2) * 8192 + r.val, by omega⟩ n ?_ ?_).symm
  · exact congrArg₂ (· + ·)
      (Finset.sum_congr rfl fun k _ => congrArg₂ (· * ·)
        (Staged.states_read m c t r k _ rfl)
        (Staged.weights_read m c t k _ 0 n (by show n.val = 0 * 128 + n.val; omega)))
      (Staged.bias_read m c t _ 0 n (by show n.val = 0 * 128 + n.val; omega))
  · show win0_3.index t (0 : Fin 2) * 8192 + 1 * r.val = win0_3.index t (0 : Fin 2) * 8192 + r.val; omega
  · show win0_3.index t (1 : Fin 2) * 128 + 1 * n.val = n.val; omega

/-- Point `t` writes back, to the second output array, its block of the variance head. -/
theorem flushed_var (c : Dev nD) (t : Fin cfg0.N) :
    (dats m 0 c).flushed 4 t = ((cfg0.win 4).blk t).view.read (Elt Ideal) (headOf m c 1) := by
  rw [Value.flushed4]
  obtain ⟨-, -, -, -, -, -, e6, -, e8, e9⟩ := Staged.idx_facts t
  funext y
  obtain ⟨r, n, rfl⟩ : ∃ (r : Fin 8192) (n : Fin 128), y = ix2 r n := ⟨y 0, y 1, eq_ix2 y⟩
  have hr := r.isLt
  have hn := n.isLt
  show out0_4 (iblk m c 0 t) (iblk m c 1 t) (iblk m c 2 t) (ix2 r n)
    = headOf m c 1 (((cfg0.win 4).blk t).view.emb (ix2 r n : S8192x128.Idx))
  refine (Body.out_var_apply (iblk m c 0 t) (iblk m c 1 t) (iblk m c 2 t) r n ⟨n.val + 128, by omega⟩ rfl).trans ?_
  refine Eq.trans ?_ (Affine.head_apply 1 _ _ _ _ ⟨win0_3.index t (0 : Fin 2) * 8192 + r.val, by omega⟩ n ?_ ?_).symm
  · exact congrArg₂ (· + ·)
      (Finset.sum_congr rfl fun k _ => congrArg₂ (· * ·)
        (Staged.states_read m c t r k _ rfl)
        (Staged.weights_read m c t k _ 1 n (by show n.val + 128 = 1 * 128 + n.val; omega)))
      (Staged.bias_read m c t _ 1 n (by show n.val + 128 = 1 * 128 + n.val; omega))
  · show win0_4.index t (0 : Fin 2) * 8192 + 1 * r.val = win0_3.index t (0 : Fin 2) * 8192 + r.val; omega
  · show win0_4.index t (1 : Fin 2) * 128 + 1 * n.val = n.val; omega

/-! ## The blocks tile the arrays -/

/-- An index of the first output array is in point `t`'s block iff each coordinate is in the block's range. -/
theorem mem_blk_mean (t : Fin cfg0.N) (i : S131072x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v5_0).slice (win0_3.rect t)).set ↔ _
  rw [View.set_slice_whole, Rect.mem_set_unit]
  exact Iff.rfl

theorem mem_blk_var (t : Fin cfg0.N) (i : S131072x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v5_1).slice (win0_4.rect t)).set ↔ _
  rw [View.set_slice_whole, Rect.mem_set_unit]
  exact Iff.rfl

/-- Row R lies in the block of rows R / 8192, which some point writes back. -/
theorem cover_mean (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := Staged.idx_onto ⟨(i 0).val / 8192, by omega⟩
  have q0 : win0_3.index t (0 : Fin 2) = (i 0).val / 8192 := ht
  obtain ⟨-, -, -, -, -, -, -, e7, -⟩ := Staged.idx_facts t
  refine ⟨t, flush0_3 t, ?_⟩
  rw [mem_blk_mean]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

theorem cover_var (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  obtain ⟨t, ht⟩ := Staged.idx_onto ⟨(i 0).val / 8192, by omega⟩
  have q0 : win0_3.index t (0 : Fin 2) = (i 0).val / 8192 := ht
  obtain ⟨-, -, -, -, -, -, e6, -, e8, -⟩ := Staged.idx_facts t
  refine ⟨t, flush0_4 t, ?_⟩
  rw [mem_blk_var]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 128 ≤ (i 1).val ∧ (i 1).val < win0_4.index t (1 : Fin 2) * 128 + 128; omega

/-! ## The arrays after the run -/

/-- The first output array ends as the mean head of the arguments. -/
theorem final_mean (c : Dev nD) : (dats m 0 c).arrAt 3 cfg0.N = headOf m c 0 :=
  (dats m 0 c).arrAt_eq_of_cover 3 (headOf m c 0) (fun t _ => flushed_mean m c t) cover_mean

/-- The second output array ends as the variance head of the arguments. -/
theorem final_var (c : Dev nD) : (dats m 0 c).arrAt 4 cfg0.N = headOf m c 1 :=
  (dats m 0 c).arrAt_eq_of_cover 4 (headOf m c 1) (fun t _ => flushed_var m c t) cover_var

/-- Every weakly fair execution of the program terminates with the two results at the two heads of the arguments as
    launched, and the arguments unchanged. -/
theorem run : θ_run defs (onTc (τ := τ) (main (F := Ideal))) ⟨m, fun _ => 0, ρ⟩ fun r => ∀ c : Dev nD,
      r.2.mem ((c : Thread nD τ).loc main_v5_0) = headOf m c 0
      ∧ r.2.mem ((c : Thread nD τ).loc main_v5_1) = headOf m c 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_mean m c), (h c).2.1.trans (final_var m c), (h c).2.2⟩)
    (Value.run_blocks m ρ)

end Cert.KernelIdeal.Heads

end
-- ==== Proof.lean ====
/-
  A bank of 128 tiny affine layers ℝ¹²⁸ → ℝ², one per node, applied to 131072 state rows: for state x [131072, 128],
  weights w [node, head, feature] = [128, 2, 128] and biases b [node, head] = [128, 2] both programs return the pair

      mean[r, n] = Σ_d x[r, d] · w[n, 0, d] + b[n, 0],      var[r, n] = Σ_d x[r, d] · w[n, 1, d] + b[n, 1].

  The reference contracts x with w over the feature axis into [row, node, head], adds the biases and slices the two
  heads apart.  The kernel first folds (head, node) into one axis of 256 columns — the weights become one matrix
  [128, 256] whose column head · 128 + node is that node's weight vector for that head, the biases one row [1, 256] —
  then, sixteen blocks of 8192 rows one after the other, multiplies the block by that matrix into a zero accumulator,
  adds the bias row, and writes columns 0 … 127 to the first result and 128 … 255 to the second.

  Over the extended reals the two agree entry by entry with no condition on the inputs: a change of float format is the
  identity, the product into a zero accumulator is the plain sum over the 128 features, and both sides then are the
  same sum of the same products plus the same bias (`Affine.head`); no law beyond reading the re-laid arrays at an index
  is used, so finiteness of the inputs is never opened.  The kernel's program writes only its staging buffers and its
  two results, and the reference only its own intermediate arrays, so the arguments end unchanged.
-/
import proofs.«159036_j25786983646071_2_alg».proof.Defs
import proofs.«159036_j25786983646071_2_alg».proof.Proof.Gen.Kernel
import proofs.«159036_j25786983646071_2_alg».proof.Proof.Gen.Kernel.Frame
import proofs.«159036_j25786983646071_2_alg».proof.Proof.Gen.KernelIdeal
import proofs.«159036_j25786983646071_2_alg».proof.Proof.Gen.KernelIdeal.Frame
import proofs.«159036_j25786983646071_2_alg».proof.Proof.Gen.KernelIdeal.Value
import proofs.«159036_j25786983646071_2_alg».proof.Proof.Gen.ReferenceIdeal
import proofs.«159036_j25786983646071_2_alg».proof.Proof.Gen.ReferenceIdeal.Run
import proofs.«159036_j25786983646071_2_alg».proof.Proof.Gen.ReferenceIdeal.Read
import proofs.«159036_j25786983646071_2_alg».proof.Proof.Gen.Pre_finite_inputs
import proofs.«159036_j25786983646071_2_alg».proof.Proof.Affine
import proofs.«159036_j25786983646071_2_alg».proof.Proof.RefHeads
import proofs.«159036_j25786983646071_2_alg».proof.Proof.Blocks

noncomputable section

namespace Cert.Proof

open Idealize.ShloMosaic Idealize.SL.Sem

/-- The kernel's program as printed terminates without fault and leaves its three arguments as they were. -/
theorem frame_kernel : Cert.frame_Kernel := fun m ρ _ => Cert.Kernel.Gen.frame m ρ

/-- So does the program read at the ideal values. -/
theorem frame_ideal : Cert.frame_KernelIdeal := fun m ρ _ => Cert.KernelIdeal.Gen.frame m ρ

/-- The reference is eight array operations in a row, none of which writes an argument. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the mean head in their first result and the variance head in their second, of arguments that
    agree. -/
theorem algebraic : Cert.algebraic_KernelIdeal_ReferenceIdeal := by
  intro m ρ m' ρ' _ hagree
  refine ⟨fun c => Cert.KernelIdeal.Heads.headOf m c 0, fun c => Cert.KernelIdeal.Heads.headOf m c 1,
    Cert.KernelIdeal.Heads.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.Heads.result0_eq_head,
      (hagree c).1, (hagree c).2.1, (hagree c).2.2]
  · rw [Cert.ReferenceIdeal.Read.val_main_v7_eq, Cert.ReferenceIdeal.Heads.result1_eq_head,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
